-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S64x8192 : Shape := ⟨2, ![64, 8192]⟩
abbrev S1024x512 : Shape := ⟨2, ![1024, 512]⟩
abbrev S2048x512 : Shape := ⟨2, ![2048, 512]⟩
abbrev S1024x1 : Shape := ⟨2, ![1024, 1]⟩
abbrev S8x2048 : Shape := ⟨2, ![8, 2048]⟩
abbrev S1024x2048 : Shape := ⟨2, ![1024, 2048]⟩
abbrev S1024 : Shape := ⟨1, ![1024]⟩
abbrev S2048 : Shape := ⟨1, ![2048]⟩
abbrev S1x2048 : Shape := ⟨2, ![1, 2048]⟩
abbrev S8x8x8192 : Shape := ⟨3, ![8, 8, 8192]⟩

abbrev nBuf : Space → Nat
  | .hbm => 90
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x512, .f32⟩
  | .hbm, ⟨25, _⟩ => ⟨S8192x512, .f32⟩
  | .hbm, ⟨26, _⟩ => ⟨S8192x512, .bf16⟩
  | .hbm, ⟨27, _⟩ => ⟨S8192x512, .f32⟩
  | .hbm, ⟨28, _⟩ => ⟨S8192x512, .f32⟩
  | .hbm, ⟨29, _⟩ => ⟨S8192x512, .bf16⟩
  | .hbm, ⟨30, _⟩ => ⟨S8192x1, .f32⟩
  | .hbm, ⟨31, _⟩ => ⟨S64x8192, .f32⟩
  | .hbm, ⟨32, _⟩ => ⟨S8192, .f32⟩
  | .hbm, ⟨33, _⟩ => ⟨S8x8x8192, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x1, .f32⟩
  | .local _ .vmem, ⟨5, _⟩ => ⟨S1024x1, .f32⟩
  | .local _ .vmem, ⟨6, _⟩ => ⟨S8x2048, .f32⟩
  | .local _ .vmem, ⟨7, _⟩ => ⟨S8x2048, .f32⟩
  | .local _ .vmem, ⟨8, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_cst_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_v37 : Ref sig .tc := ⟨.hbm, 60, rfl⟩
abbrev main_cst_11 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_12 : Ref sig .tc := ⟨.hbm, 65, rfl⟩
abbrev main_v41 : Ref sig .tc := ⟨.hbm, 66, rfl⟩
abbrev main_v42 : Ref sig .tc := ⟨.hbm, 67, rfl⟩
abbrev main_cst_13 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_14 : Ref sig .tc := ⟨.hbm, 73, rfl⟩
abbrev main_v47 : Ref sig .tc := ⟨.hbm, 74, rfl⟩
abbrev main_cst_15 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_16 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_17 : Ref sig .tc := ⟨.hbm, 87, rfl⟩
abbrev main_v58 : Ref sig .tc := ⟨.hbm, 88, rfl⟩
abbrev main_v59 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S1024x2048_S1024 : S1024x2048.Reduces [1] S1024
  shapeCasts_S1024_S1024x1 : S1024.ShapeCasts S1024x1
  reduces_S1024x2048_S2048 : S1024x2048.Reduces [0] S2048
  shapeCasts_S2048_S1x2048 : S2048.ShapeCasts S1x2048
  shapeCasts_S1x2048_S1x2048 : S1x2048.ShapeCasts S1x2048
  broadcasts_S1x2048_S8x2048 : S1x2048.Broadcasts S8x2048
  inb_S8x2048_S8x2048_0_0 : ∀ a, (![0, 0] : Fin 2 → Nat) a + S8x2048.size a ≤ S8x2048.size a
  h_S8x2048 : 0 < S8x2048.numel
  shapeCasts_S8192x1_S8192 : S8192x1.ShapeCasts S8192
  shapeCasts_S64x8192_S8x8x8192 : S64x8192.ShapeCasts S8x8x8192
  reducesTo_S8x8x8192_S8192_d0_1 : S8x8x8192.ReducesTo [0, 1] S8192
  bcast_S_S8192 : S_.BroadcastsInDim S8192 (![] : Fin 0 → Fin S8192.rank)
  reducesTo_S8192_S_d0 : S8192.ReducesTo [0] S_
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .bf16 = 32 ∨ (Rect.block (s := S8192x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2048.size a ≤ S64x8192.size a
  hwx0_3 : ∀ i : grid0.Coords, EltTy.bits .f32 = 32 ∨ (Rect.block (s := S64x8192) S8x2048.size (cc0_transform_3 i) (hinb0_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v12) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16_1) S8x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 81
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_cst_10 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_11 : Ref sig .tc := ⟨.hbm, 56, rfl⟩
abbrev main_v34 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_13 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_15 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_16 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S8192x8192_S8192_d1 : S8192x8192.ReducesTo [1] S8192
  bcast_S_S8192 : S_.BroadcastsInDim S8192 (![] : Fin 0 → Fin S8192.rank)
  reducesTo_S8192x8192_S8192_d0 : S8192x8192.ReducesTo [0] S8192
  reducesTo_S8192_S_d0 : S8192.ReducesTo [0] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.KernelBody.lean ====
/-
  What one run of the kernel body leaves behind, case by case, as values.

  The body keeps a running row maximum in a scratch column. At the first tile of a row block (case A) it resets the
  scratch to `-∞` and then absorbs the tile; at a middle tile (case B) it absorbs the tile into what the previous
  point left; at the last tile (case C) it does the same and copies the scratch out as the block of row maxima. In
  every case it writes the tile's column maxima, one row repeated eight times.

  Each lemma reads back what the run stored — its covering stores, whose loads read the whole staging buffers — as the
  body's arithmetic applied to the point's two input blocks (and, after the first tile, to the previous scratch).
  The arithmetic itself stays closed here: it is the three named payloads of the generated skeleton.
-/
import proofs.«164926_j63737314673124_2_alg».proof.Proof.KernelIdealFrame.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen Cert.KernelIdeal.GenP

variable {F : FTy → Type} [FloatOps F]

/-- Every store and load of the body starts at the origin of its buffer. -/
theorem hz2 : (![0, 0] : Fin 2 → Nat) = fun _ => 0 := funext fun a => by fin_cases a <;> rfl

/-! ## First tile of a row block -/

/-- The scratch after the first tile: the tile absorbed into the reset column. -/
theorem scratch_A (c : Dev nD) (i : grid0.Coords) (a2 : Memref sig .tc .vmem S1024x512 .bf16) (h2 : a2.IsWhole) (a3 : Memref sig .tc .vmem S2048x512 .bf16) (h3 : a3.IsWhole)
    (a4 : Memref sig .tc .vmem S1024x1 .f32) (h4 : a4.IsWhole) (a5 : Memref sig .tc .vmem S8x2048 .f32) (h5 : a5.IsWhole) (a6 : Memref sig .tc .vmem S1024x1 .f32) (h6 : a6.IsWhole)
    (hc0 : cond0_0 i) (hc1 : ¬cond0_1 i) (x0 : Vec F S1024x512 .bf16) (x1 : Vec F S2048x512 .bf16) :
    sout0_A_0 c i a2 h2 a3 h3 a4 h4 a5 h5 a6 h6 hc0 hc1 x0 x1 = k0_pay3 x0 x1 (k0_pay1 (F := F)) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S1024x1) hz2, View.readCov_unit_zero (S := S1024x1) _ hz2]
  simp only [View.readAt_eq_ld, h2.read_unread, h3.read_unread, View.ld_unit_zero (S := S1024x512) hz2, View.ld_unit_zero (S := S2048x512) hz2]

/-- The tile's column maxima, written at the first tile. -/
theorem colOut_A (c : Dev nD) (i : grid0.Coords) (a2 : Memref sig .tc .vmem S1024x512 .bf16) (h2 : a2.IsWhole) (a3 : Memref sig .tc .vmem S2048x512 .bf16) (h3 : a3.IsWhole)
    (a4 : Memref sig .tc .vmem S1024x1 .f32) (h4 : a4.IsWhole) (a5 : Memref sig .tc .vmem S8x2048 .f32) (h5 : a5.IsWhole) (a6 : Memref sig .tc .vmem S1024x1 .f32) (h6 : a6.IsWhole)
    (hc0 : cond0_0 i) (hc1 : ¬cond0_1 i) (x0 : Vec F S1024x512 .bf16) (x1 : Vec F S2048x512 .bf16) :
    out0_A_3 c i a2 h2 a3 h3 a4 h4 a5 h5 a6 h6 hc0 hc1 x0 x1 = k0_pay4 x0 x1 := by
  unfold out0_A_3
  rw [View.read_writes_eq_canon _ _ _ (cover0_A_3 c i a2 h2 a3 h3 a4 h4 a5 h5 a6 h6 hc0 hc1 x0 x1)]
  unfold kernelRun0_A
  dsimp only
  sl_unfold_words
  rw [View.canon_unit_zero hz2]
  simp only [View.readAt_eq_ld, h2.read_unread, h3.read_unread, View.ld_unit_zero (S := S1024x512) hz2, View.ld_unit_zero (S := S2048x512) hz2]

/-! ## A middle tile -/

/-- The scratch after a middle tile: the tile absorbed into what the point before left. -/
theorem scratch_B (c : Dev nD) (i : grid0.Coords) (a2 : Memref sig .tc .vmem S1024x512 .bf16) (h2 : a2.IsWhole) (a3 : Memref sig .tc .vmem S2048x512 .bf16) (h3 : a3.IsWhole)
    (a4 : Memref sig .tc .vmem S1024x1 .f32) (h4 : a4.IsWhole) (a5 : Memref sig .tc .vmem S8x2048 .f32) (h5 : a5.IsWhole) (a6 : Memref sig .tc .vmem S1024x1 .f32) (h6 : a6.IsWhole)
    (hc0 : ¬cond0_0 i) (hc1 : ¬cond0_1 i) (x0 : Vec F S1024x512 .bf16) (x1 : Vec F S2048x512 .bf16) (xs0 : Vec F S1024x1 .f32) :
    sout0_B_0 c i a2 h2 a3 h3 a4 h4 a5 h5 a6 h6 hc0 hc1 x0 x1 xs0 = k0_pay3 x0 x1 xs0 := by
  unfold sout0_B_0
  rw [View.read_writes_eq_canon _ _ _ (scover0_B_0 c i a2 h2 a3 h3 a4 h4 a5 h5 a6 h6 hc0 hc1 x0 x1 xs0)]
  unfold kernelRun0_B
  dsimp only
  sl_unfold_words
  rw [View.canon_unit_zero hz2]
  simp only [View.readAt_eq_ld, h2.read_unread, h3.read_unread, h6.read_unread, View.ld_unit_zero (S := S1024x512) hz2, View.ld_unit_zero (S := S2048x512) hz2, View.ld_unit_zero (S := S1024x1) hz2]

/-- The tile's column maxima, written at a middle tile. -/
theorem colOut_B (c : Dev nD) (i : grid0.Coords) (a2 : Memref sig .tc .vmem S1024x512 .bf16) (h2 : a2.IsWhole) (a3 : Memref sig .tc .vmem S2048x512 .bf16) (h3 : a3.IsWhole)
    (a4 : Memref sig .tc .vmem S1024x1 .f32) (h4 : a4.IsWhole) (a5 : Memref sig .tc .vmem S8x2048 .f32) (h5 : a5.IsWhole) (a6 : Memref sig .tc .vmem S1024x1 .f32) (h6 : a6.IsWhole)
    (hc0 : ¬cond0_0 i) (hc1 : ¬cond0_1 i) (x0 : Vec F S1024x512 .bf16) (x1 : Vec F S2048x512 .bf16) (xs0 : Vec F S1024x1 .f32) :
    out0_B_3 c i a2 h2 a3 h3 a4 h4 a5 h5 a6 h6 hc0 hc1 x0 x1 xs0 = k0_pay4 x0 x1 := by
  unfold out0_B_3
  rw [View.read_writes_eq_canon _ _ _ (cover0_B_3 c i a2 h2 a3 h3 a4 h4 a5 h5 a6 h6 hc0 hc1 x0 x1 xs0)]
  unfold kernelRun0_B
  dsimp only
  sl_unfold_words
  rw [View.canon_unit_zero hz2]
  simp only [View.readAt_eq_ld, h2.read_unread, h3.read_unread, View.ld_unit_zero (S := S1024x512) hz2, View.ld_unit_zero (S := S2048x512) hz2]

/-! ## Last tile of a row block -/

/-- The scratch after the last tile: the tile absorbed into what the point before left. -/
theorem scratch_C (c : Dev nD) (i : grid0.Coords) (a2 : Memref sig .tc .vmem S1024x512 .bf16) (h2 : a2.IsWhole) (a3 : Memref sig .tc .vmem S2048x512 .bf16) (h3 : a3.IsWhole)
    (a4 : Memref sig .tc .vmem S1024x1 .f32) (h4 : a4.IsWhole) (a5 : Memref sig .tc .vmem S8x2048 .f32) (h5 : a5.IsWhole) (a6 : Memref sig .tc .vmem S1024x1 .f32) (h6 : a6.IsWhole)
    (hc0 : ¬cond0_0 i) (hc1 : cond0_1 i) (x0 : Vec F S1024x512 .bf16) (x1 : Vec F S2048x512 .bf16) (xs0 : Vec F S1024x1 .f32) :
    sout0_C_0 c i a2 h2 a3 h3 a4 h4 a5 h5 a6 h6 hc0 hc1 x0 x1 xs0 = k0_pay3 x0 x1 xs0 := by
  unfold sout0_C_0
  rw [View.read_writes_eq_canon _ _ _ (scover0_C_0 c i a2 h2 a3 h3 a4 h4 a5 h5 a6 h6 hc0 hc1 x0 x1 xs0)]
  unfold kernelRun0_C
  dsimp only
  sl_unfold_words
  rw [View.canon_unit_zero hz2]
  simp only [View.readAt_eq_ld, h2.read_unread, h3.read_unread, h6.read_unread, View.ld_unit_zero (S := S1024x512) hz2, View.ld_unit_zero (S := S2048x512) hz2, View.ld_unit_zero (S := S1024x1) hz2]

/-- The block of row maxima written at the last tile is the scratch just completed. -/
theorem rowOut_C (c : Dev nD) (i : grid0.Coords) (a2 : Memref sig .tc .vmem S1024x512 .bf16) (h2 : a2.IsWhole) (a3 : Memref sig .tc .vmem S2048x512 .bf16) (h3 : a3.IsWhole)
    (a4 : Memref sig .tc .vmem S1024x1 .f32) (h4 : a4.IsWhole) (a5 : Memref sig .tc .vmem S8x2048 .f32) (h5 : a5.IsWhole) (a6 : Memref sig .tc .vmem S1024x1 .f32) (h6 : a6.IsWhole)
    (hc0 : ¬cond0_0 i) (hc1 : cond0_1 i) (x0 : Vec F S1024x512 .bf16) (x1 : Vec F S2048x512 .bf16) (xs0 : Vec F S1024x1 .f32) :
    out0_C_2 c i a2 h2 a3 h3 a4 h4 a5 h5 a6 h6 hc0 hc1 x0 x1 xs0 = k0_pay3 x0 x1 xs0 := by
  unfold out0_C_2
  rw [View.read_writes_eq_canon _ _ _ (cover0_C_2 c i a2 h2 a3 h3 a4 h4 a5 h5 a6 h6 hc0 hc1 x0 x1 xs0)]
  unfold kernelRun0_C
  dsimp only
  sl_unfold_words
  rw [View.canon_unit_zero hz2, View.readCov_unit_zero (S := S1024x1) _ hz2]
  simp only [View.readAt_eq_ld, h2.read_unread, h3.read_unread, h6.read_unread, View.ld_unit_zero (S := S1024x512) hz2, View.ld_unit_zero (S := S2048x512) hz2, View.ld_unit_zero (S := S1024x1) hz2]

/-- The tile's column maxima, written at the last tile. -/
theorem colOut_C (c : Dev nD) (i : grid0.Coords) (a2 : Memref sig .tc .vmem S1024x512 .bf16) (h2 : a2.IsWhole) (a3 : Memref sig .tc .vmem S2048x512 .bf16) (h3 : a3.IsWhole)
    (a4 : Memref sig .tc .vmem S1024x1 .f32) (h4 : a4.IsWhole) (a5 : Memref sig .tc .vmem S8x2048 .f32) (h5 : a5.IsWhole) (a6 : Memref sig .tc .vmem S1024x1 .f32) (h6 : a6.IsWhole)
    (hc0 : ¬cond0_0 i) (hc1 : cond0_1 i) (x0 : Vec F S1024x512 .bf16) (x1 : Vec F S2048x512 .bf16) (xs0 : Vec F S1024x1 .f32) :
    out0_C_3 c i a2 h2 a3 h3 a4 h4 a5 h5 a6 h6 hc0 hc1 x0 x1 xs0 = k0_pay4 x0 x1 := by
  unfold out0_C_3
  rw [View.read_writes_eq_canon _ _ _ (cover0_C_3 c i a2 h2 a3 h3 a4 h4 a5 h5 a6 h6 hc0 hc1 x0 x1 xs0)]
  unfold kernelRun0_C
  dsimp only
  sl_unfold_words
  rw [View.canon_unit_zero hz2]
  simp only [View.readAt_eq_ld, h2.read_unread, h3.read_unread, View.ld_unit_zero (S := S1024x512) hz2, View.ld_unit_zero (S := S2048x512) hz2]

end Cert.KernelIdeal.Body

end
-- ==== Proof.KernelPoints.lean ====
/-
  What the kernel's buffers hold after each grid point, in terms of the point's two input blocks.

  The grid is 8 row blocks by 4 column blocks, visited row block by row block: point `t` works on row block `t / 4`
  and column block `t mod 4`. The running row maximum lives in the scratch column: after point `t` it is the body's
  accumulation step applied to the point's blocks and to the reset column (when `t mod 4 = 0`) or to what point
  `t - 1` left. At `t mod 4 = 3` the block of row maxima written out is that same column. At every point the block of
  column maxima is the body's column step applied to the point's blocks.
-/
import proofs.«164926_j63737314673124_2_alg».proof.Proof.KernelBody

noncomputable section

open Idealize.ShloMosaic Idealize.ShloMosaic.TcCoe Idealize.SL.Sem

namespace Cert.KernelIdeal.Body

open Cert.KernelIdeal Cert.KernelIdeal.Gen Cert.KernelIdeal.GenP

variable {F : FTy → Type} [FloatOps F]
variable (m : (ℓ : Loc nD τ sig) → Buf (Elt F) ℓ)

set_option maxHeartbeats 2000000 in
/-- The scratch after the first tile of a row block. -/
theorem scratchAt_A (c : Dev nD) (t : Fin cfg0.N) (h0 : t.val % 4 = 0) (h1 : ¬t.val % 4 = 3) :
    (outsAt0 m c t.val t.isLt).2.2 = k0_pay3 (iblk m c 0 t) (iblk m c 1 t) (k0_pay1 (F := F)) := by
  rw [outsAt0_A m c t h0 h1]
  dsimp only
  exact scratch_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

set_option maxHeartbeats 2000000 in
/-- The scratch after a middle tile. -/
theorem scratchAt_B (c : Dev nD) (t : Fin cfg0.N) (h0 : ¬t.val % 4 = 0) (h1 : ¬t.val % 4 = 3) :
    (outsAt0 m c t.val t.isLt).2.2 = k0_pay3 (iblk m c 0 t) (iblk m c 1 t) (outsAt0 m c (t.val - 1) (Nat.lt_of_le_of_lt (Nat.sub_le _ _) t.isLt)).2.2 := by
  rw [outsAt0_B m c t h0 h1]
  dsimp only
  exact scratch_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

set_option maxHeartbeats 2000000 in
/-- The scratch after the last tile of a row block. -/
theorem scratchAt_C (c : Dev nD) (t : Fin cfg0.N) (h0 : ¬t.val % 4 = 0) (h1 : t.val % 4 = 3) :
    (outsAt0 m c t.val t.isLt).2.2 = k0_pay3 (iblk m c 0 t) (iblk m c 1 t) (outsAt0 m c (t.val - 1) (Nat.lt_of_le_of_lt (Nat.sub_le _ _) t.isLt)).2.2 := by
  rw [outsAt0_C m c t h0 h1]
  dsimp only
  exact scratch_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2

set_option maxHeartbeats 2000000 in
/-- The block of row maxima written at the last tile of a row block is the scratch that point leaves. -/
theorem rowAt_C (c : Dev nD) (t : Fin cfg0.N) (h0 : ¬t.val % 4 = 0) (h1 : t.val % 4 = 3) :
    (outsAt0 m c t.val t.isLt).1 = (outsAt0 m c t.val t.isLt).2.2 := by
  rw [outsAt0_C m c t h0 h1]
  dsimp only
  exact (rowOut_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).trans
    (scratch_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).symm

set_option maxHeartbeats 2000000 in
/-- The block of column maxima written at any point. -/
theorem colAt (c : Dev nD) (t : Fin cfg0.N) :
    (outsAt0 m c t.val t.isLt).2.1 = k0_pay4 (iblk m c 0 t) (iblk m c 1 t) := by
  by_cases h0 : t.val % 4 = 0
  · have h1 : ¬t.val % 4 = 3 := by omega
    rw [outsAt0_A m c t h0 h1]
    dsimp only
    exact colOut_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 4 = 3
    · rw [outsAt0_C m c t h0 h1]
      dsimp only
      exact colOut_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]
      dsimp only
      exact colOut_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

end Cert.KernelIdeal.Body

end
-- ==== Proof.Spec.lean ====
/-
  The result both programs compute, stated once, with no program in sight.

  Rows of the two inputs are scaled to unit length (the divisor is the larger of a row's Euclidean norm and a fixed
  positive floor). `C[n, m]` is the inner product of scaled row `n` of the first input with scaled row `m` of the
  second: a sum of 512 products of extended reals. The two results are one and the same function — the entropy term
  `-(sum of exp(lp) * lp)` of the normal log-density `lp` — applied to the vector of row maxima of `C` and to the
  vector of its column maxima.

  A maximum is carried by its universal property: `v` is the supremum of a family exactly when `v ≤ c` holds for
  the same `c` as "every member is `≤ c`". A fold of `max` from `-∞` over a finite family in any order, a
  blockwise accumulation, and a maximum of partial maxima all meet that description, and it determines `v`.
-/
import Idealize.ShloMosaic.PureOps.Ideal
import Idealize.ShloMosaic.PureOps.Ideal.Laws
import Idealize.ShloMosaic.Lib.ValueIdx

noncomputable section

namespace Cert.CosMax

open Idealize.ShloMosaic Idealize.ShloMosaic.TcCoe Idealize.ShloMosaic.ValueIdx

/-- The scalar shape, a vector of 8192 entries, the 8192 × 8192 matrix of inner products, an 8192 × 512 input. -/
abbrev Sc : Shape := ⟨0, ![]⟩
abbrev Vn : Shape := ⟨1, ![8192]⟩
abbrev Mnn : Shape := ⟨2, ![8192, 8192]⟩
abbrev Rnd : Shape := ⟨2, ![8192, 512]⟩

/-! ## The entropy term both programs end with -/

section Tail

variable {F : FTy → Type} [FloatOps F]

/-- The normal log-density with mean 1 and deviation 0.3, entry by entry:
    `-1/2 · ((v - 1) / 0.3)² - log 0.3 - 1/2 · log 6.2831855`. -/
def logProb (hb : Sc.BroadcastsInDim Vn (![] : Fin 0 → Fin Vn.rank)) (v : FVec F Vn .f32) : FVec F Vn .f32 :=
  subf (subf (mulf (broadcastInDim Vn ![] hb (constant Sc .f32 0xBF000000#32))
      (mulf (Host.divf (subf v (broadcastInDim Vn ![] hb (constant Sc .f32 0x3F800000#32)))
              (broadcastInDim Vn ![] hb (constant Sc .f32 0x3E99999A#32)))
            (Host.divf (subf v (broadcastInDim Vn ![] hb (constant Sc .f32 0x3F800000#32)))
              (broadcastInDim Vn ![] hb (constant Sc .f32 0x3E99999A#32)))))
    (broadcastInDim Vn ![] hb (Host.log (constant Sc .f32 0x3E99999A#32))))
    (broadcastInDim Vn ![] hb (mulf (constant Sc .f32 0x3F000000#32) (Host.log (constant Sc .f32 0x40C90FDB#32))))

/-- The entropy term of a vector: minus the sum over its entries of `exp(lp) · lp`. -/
def entropy (hb : Sc.BroadcastsInDim Vn (![] : Fin 0 → Fin Vn.rank)) (hr : Vn.ReducesTo [0] Sc) (hs : 0 < Sc.numel)
    (v : FVec F Vn .f32) : FVec F Sc .f32 :=
  Host.negf (Host.reduceAdd (mulf (Host.exp (logProb hb v)) (logProb hb v)) (constant Sc .f32 0x00000000#32) hr hs)

end Tail

/-! ## The matrix of inner products and its row and column maxima -/

/-- `C[n, m] = ∑ₖ A[n, k] · B[m, k]`. -/
def gram (A B : Rnd.Idx → EReal) : Mnn.Idx → EReal :=
  fun i => ∑ k : Fin 512, A (ix2 (⟨(i 0).val, (i 0).isLt⟩ : Fin 8192) k) * B (ix2 (⟨(i 1).val, (i 1).isLt⟩ : Fin 8192) k)

theorem gram_apply (A B : Rnd.Idx → EReal) (n m : Fin 8192) :
    gram A B (ix2 n m) = ∑ k : Fin 512, A (ix2 n k) * B (ix2 m k) := rfl

/-- The row maxima of a matrix: entry `n` is the supremum of row `n`. -/
def rowMax (M : Mnn.Idx → EReal) : Vn.Idx → EReal :=
  fun i => ⨆ m : Fin 8192, M (ix2 (⟨(i 0).val, (i 0).isLt⟩ : Fin 8192) m)

/-- The column maxima of a matrix: entry `m` is the supremum of column `m`. -/
def colMax (M : Mnn.Idx → EReal) : Vn.Idx → EReal :=
  fun i => ⨆ n : Fin 8192, M (ix2 n (⟨(i 0).val, (i 0).isLt⟩ : Fin 8192))

theorem rowMax_apply (M : Mnn.Idx → EReal) (n : Fin 8192) : rowMax M (ix1 n) = ⨆ m : Fin 8192, M (ix2 n m) := rfl
theorem colMax_apply (M : Mnn.Idx → EReal) (m : Fin 8192) : colMax M (ix1 m) = ⨆ n : Fin 8192, M (ix2 n m) := rfl

/-- A value that is below exactly the upper bounds of a family is the family's supremum. -/
theorem eq_iSup_of_le_iff {ι : Type} (v : EReal) (f : ι → EReal) (h : ∀ c : EReal, v ≤ c ↔ ∀ i, f i ≤ c) :
    v = ⨆ i, f i :=
  eq_of_forall_ge_iff fun c => by rw [h c, iSup_le_iff]

/-- A fold of `max` from `-∞` over a whole finite family, in whatever order, is the family's supremum. -/
theorem fold_max_bot_eq_iSup {ι : Type} [Fintype ι] (f : ι → EReal) :
    (Finset.univ : Finset ι).fold max ⊥ f = ⨆ i, f i :=
  eq_iSup_of_le_iff _ _ fun c => by
    rw [Finset.fold_max_le]
    exact ⟨fun h i => h.2 i (Finset.mem_univ i), fun h => ⟨bot_le, fun i _ => h i⟩⟩

/-! ## The few facts about extended reals the bridge uses -/

/-- The word `0xFF800000` denotes `-∞`, the least extended real. -/
theorem negInf : Ideal.ofBits .f32 0xFF800000#32 = ⊥ := by
  simp [Ideal.ofBits, Ideal.ieee]

/-- The floor under a row's norm, the word `0x322BCC77` (about `1e-8`), denotes a positive real. -/
theorem floor_pos : (0 : EReal) < Ideal.ofBits .f32 0x322BCC77#32 := by
  simp [Ideal.ofBits, Ideal.ieee, -EReal.coe_mul]

/-- Multiplying by the reciprocal of a divisor other than zero is dividing by it: both are `x · y⁻¹`. -/
theorem mul_one_div (x y : EReal) (hy : y ≠ 0) : x * Ideal.div 1 y = Ideal.div x y := by
  unfold Ideal.div
  rw [if_neg hy, if_neg hy, one_mul]

/-- A value at least a positive floor is not zero. -/
theorem max_floor_ne_zero (a e : EReal) (he : 0 < e) : max a e ≠ 0 :=
  ne_of_gt (lt_of_lt_of_le he (le_max_right a e))

end Cert.CosMax

end
-- ==== Proof.MaxForms.lean ====
/-
  Maxima read at an index, for the shapes of this kernel and with no program in sight.

  A reduction by `max` from `-∞` along one axis — the host's over a whole 8192 × 8192 matrix, the vector unit's over
  one 1024 × 2048 tile — is, at each kept index, the supremum along that axis: the library reads either as a fold of
  `max` over the axis's coordinates, and a fold of `max` from `-∞` in any order is the supremum. The host's
  reduction of an 8 × 8 × 8192 stack over its first two axes is read by its universal property: it is below exactly
  the upper bounds of the 64 entries over a column. Two reshapes are read at an index: a column [8192, 1] as a vector,
  and 64 rows of 8192 as 8 × 8 rows.
-/
import proofs.«164926_j63737314673124_2_alg».proof.Proof.Spec
import Idealize.ShloMosaic.Lib.Pipeline.Value

noncomputable section

namespace Cert.CosMax

open Idealize.ShloMosaic Idealize.ShloMosaic.TcCoe Idealize.ShloMosaic.ValueIdx

/-- One tile of the matrix, its rows and columns as vectors, a column of 8192, 64 rows of 8192 and the same as 8 × 8 rows. -/
abbrev Tile : Shape := ⟨2, ![1024, 2048]⟩
abbrev TileRows : Shape := ⟨1, ![1024]⟩
abbrev TileCols : Shape := ⟨1, ![2048]⟩
abbrev Col : Shape := ⟨2, ![8192, 1]⟩
abbrev Rows64 : Shape := ⟨2, ![64, 8192]⟩
abbrev Stack : Shape := ⟨3, ![8, 8, 8192]⟩

/-- A fold of `max` from the word `0xFF800000` over a whole finite family is the supremum of the same family listed
    over another index type in bijection with the first. -/
theorem fold_max_negInf_eq_iSup {ι κ : Type} [Fintype ι] (f : ι → EReal) (g : κ → EReal) (e : ι ≃ κ)
    (hfg : ∀ i, f i = g (e i)) :
    (Finset.univ : Finset ι).fold max (Ideal.ofBits .f32 0xFF800000#32) f = ⨆ k, g k := by
  rw [negInf, fold_max_bot_eq_iSup]
  exact Equiv.iSup_congr e fun i => (hfg i).symm

/-! ## The host's maxima of the whole matrix -/

/-- The host's `max`-reduction of the matrix along its second axis, from `-∞`, is the vector of row suprema. -/
theorem hostRowMax (M : FVec Ideal Mnn .f32) (h' : Mnn.ReducesTo [1] Vn) (hs : 0 < Sc.numel) :
    Host.reduce FloatOps.maximumf M (constant Sc .f32 0xFF800000#32) h' hs = rowMax M := by
  funext i
  obtain ⟨n, rfl⟩ : ∃ n : Fin 8192, i = ix1 n := ⟨i 0, eq_ix1 i⟩
  have h : Mnn.Reduces [1] Vn := by decide
  refine (Host.reduce_eq_fold_single (FloatOps.maximumf (F := Ideal) (φ := .f32)) M _ h' h hs (ix1 n)).trans ?_
  rw [rowMax_apply]
  refine fold_max_negInf_eq_iSup _ _ (finCongr (rfl : Mnn.size 1 = 8192)) fun k => congrArg M (funext fun a => Fin.ext ?_)
  match a with
  | ⟨0, _⟩ => rfl
  | ⟨1, _⟩ => rfl

/-- The host's `max`-reduction of the matrix along its first axis, from `-∞`, is the vector of column suprema. -/
theorem hostColMax (M : FVec Ideal Mnn .f32) (h' : Mnn.ReducesTo [0] Vn) (hs : 0 < Sc.numel) :
    Host.reduce FloatOps.maximumf M (constant Sc .f32 0xFF800000#32) h' hs = colMax M := by
  funext i
  obtain ⟨m, rfl⟩ : ∃ m : Fin 8192, i = ix1 m := ⟨i 0, eq_ix1 i⟩
  have h : Mnn.Reduces [0] Vn := by decide
  refine (Host.reduce_eq_fold_single (FloatOps.maximumf (F := Ideal) (φ := .f32)) M _ h' h hs (ix1 m)).trans ?_
  rw [colMax_apply]
  refine fold_max_negInf_eq_iSup _ _ (finCongr (rfl : Mnn.size 0 = 8192)) fun k => congrArg M (funext fun a => Fin.ext ?_)
  match a with
  | ⟨0, _⟩ => rfl
  | ⟨1, _⟩ => rfl

/-! ## The vector unit's maxima of one tile -/

/-- A tile's `max`-reduction along its lanes, from `-∞`: entry `p` is the supremum of row `p` of the tile. -/
theorem tileRowMax (src : FVec Ideal Tile .f32) (h : Tile.Reduces [1] TileRows) (hφ : FKind.Formats .f32)
    (hacc : (0xFF800000#32 : BitVec 32) = FKind.maximumf.neutral .f32 hφ) (p : Fin 1024) :
    multiReduction .maximumf [1] TileRows src 0xFF800000#32 h hφ hacc (ix1 p) = ⨆ q : Fin 2048, src (ix2 p q) := by
  refine (Ideal.multiReduction_maximumf_single src _ h hφ hacc (ix1 p)).trans ?_
  refine fold_max_negInf_eq_iSup _ _ (finCongr (rfl : Tile.size 1 = 2048)) fun q => congrArg src (funext fun a => Fin.ext ?_)
  match a with
  | ⟨0, _⟩ => rfl
  | ⟨1, _⟩ => rfl

/-- A tile's `max`-reduction along its rows, from `-∞`: entry `q` is the supremum of column `q` of the tile. -/
theorem tileColMax (src : FVec Ideal Tile .f32) (h : Tile.Reduces [0] TileCols) (hφ : FKind.Formats .f32)
    (hacc : (0xFF800000#32 : BitVec 32) = FKind.maximumf.neutral .f32 hφ) (q : Fin 2048) :
    multiReduction .maximumf [0] TileCols src 0xFF800000#32 h hφ hacc (ix1 q) = ⨆ p : Fin 1024, src (ix2 p q) := by
  refine (Ideal.multiReduction_maximumf_single src _ h hφ hacc (ix1 q)).trans ?_
  refine fold_max_negInf_eq_iSup _ _ (finCongr (rfl : Tile.size 0 = 1024)) fun p => congrArg src (funext fun a => Fin.ext ?_)
  match a with
  | ⟨0, _⟩ => rfl
  | ⟨1, _⟩ => rfl

/-! ## The host's maximum over the 8 × 8 partial column maxima -/

/-- The host's `max`-reduction of an 8 × 8 × 8192 stack over its first two axes, from `-∞`, at column `m`: it is
    below `c` exactly when each of the 64 entries over that column is. -/
theorem hostStackMax_le (X : FVec Ideal Stack .f32) (h' : Stack.ReducesTo [0, 1] Vn) (hs : 0 < Sc.numel) (m : Fin 8192)
    (c : EReal) :
    Host.reduce FloatOps.maximumf X (constant Sc .f32 0xFF800000#32) h' hs (ix1 m) ≤ c ↔ ∀ a s : Fin 8, X (ix3 a s m) ≤ c := by
  rw [Host.reduce_eq_fold (FloatOps.maximumf (F := Ideal) (φ := .f32))]
  show (Finset.univ.filter fun i => h'.drop i = ix1 m).fold max (Ideal.ofBits .f32 0xFF800000#32) X ≤ c ↔ _
  rw [negInf, Finset.fold_max_le]
  constructor
  · intro hh a s
    refine hh.2 (ix3 a s m) (Finset.mem_filter.2 ⟨Finset.mem_univ _, funext fun b => Fin.ext ?_⟩)
    match b with
    | ⟨0, _⟩ => rfl
  · intro hh
    refine ⟨bot_le, fun i hi => ?_⟩
    have hd := (Finset.mem_filter.1 hi).2
    have e : (i 2).val = m.val := congrArg (fun f : Vn.Idx => (f 0).val) hd
    have hi3 : i = ix3 (⟨(i 0).val, (i 0).isLt⟩ : Fin 8) (⟨(i 1).val, (i 1).isLt⟩ : Fin 8) m := funext fun a => Fin.ext (by
      match a with
      | ⟨0, _⟩ => rfl
      | ⟨1, _⟩ => rfl
      | ⟨2, _⟩ => exact e)
    rw [hi3]
    exact hh _ _

/-! ## Two reshapes read at an index -/

/-- A column [8192, 1] recast as a vector: entry `n` is the column's entry `(n, 0)`. -/
theorem colCast_apply {α : Type} (x : Col.Idx → α) (h : Col.ShapeCasts Vn) (n : Fin 8192) :
    shapeCast Vn x h (ix1 n) = x (ix2 n (0 : Fin 1)) := by
  refine shapeCast_apply x h (ix1 n) (ix2 n (0 : Fin 1)) ?_
  rw [Shape.rowMajor_val_two, Shape.rowMajor_val_one]
  show n.val * 1 + 0 = n.val
  omega

/-- 64 rows of 8192 recast as 8 × 8 rows: entry `(a, s, m)` is row `8a + s`, column `m`. -/
theorem stackCast_apply {α : Type} (x : Rows64.Idx → α) (h : Rows64.ShapeCasts Stack) (a s : Fin 8) (m : Fin 8192)
    (r : Fin 64) (hr : r.val = 8 * a.val + s.val) :
    shapeCast Stack x h (ix3 a s m) = x (ix2 r m) := by
  refine shapeCast_apply x h (ix3 a s m) (ix2 r m) ?_
  rw [Shape.rowMajor_val_two, Shape.rowMajor_val_three]
  show r.val * 8192 + m.val = (a.val * 8 + s.val) * 8192 + m.val
  rw [hr]
  omega

end Cert.CosMax

end
-- ==== Proof.LibMatmulNT.lean ====
/-
  A matrix product whose right operand is contracted along its SECOND axis: x : [M, K] against y : [N, K],
  the product x · yᵀ. Into the zero accumulator, on the extended reals, its entry (p, q) is
  `Σ_k x[p, k] · y[q, k]`. Stated for any dimension-numbers record with these fields (contracting axis 1 of both
  operands, free axis 0 of both, no batch axis) and any sizes M, K, N.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : Nat}

/-- The contraction has one axis … -/
theorem contr_rank (D : DotDims ⟨2, ![M, K]⟩ ⟨2, ![N, K]⟩ ⟨2, ![M, N]⟩) (hlc : D.lhsContracting = [1]) :
    D.contr.rank = 1 := by
  rw [D.rank_contr, hlc]; rfl

/-- … of extent K, the left operand's second extent. -/
theorem contr_size (D : DotDims ⟨2, ![M, K]⟩ ⟨2, ![N, K]⟩ ⟨2, ![M, N]⟩) (hlc : D.lhsContracting = [1]) :
    D.contr.size ⟨0, by rw [contr_rank D hlc]; exact Nat.one_pos⟩ = K := by
  obtain ⟨lc, rc, ln, rn, lb, rb, wf⟩ := D
  dsimp only at hlc
  subst hlc
  rfl

/-- The left operand's row is the result's row. -/
theorem lhsIdx_row (D : DotDims ⟨2, ![M, K]⟩ ⟨2, ![N, K]⟩ ⟨2, ![M, N]⟩)
    (hln : D.lhsNonContracting = [0]) (hlb : D.lhsBatch = [])
    (j : (⟨2, ![M, N]⟩ : Shape).Idx) (kk : D.contr.Idx) : (D.lhsIdx j kk 0).val = (j 0).val := by
  obtain ⟨lc, rc, ln, rn, lb, rb, wf⟩ := D
  dsimp only at hln hlb
  subst hln hlb
  unfold DotDims.lhsIdx
  rw [dif_neg List.not_mem_nil, dif_pos (List.mem_singleton.mpr rfl)]
  rfl

/-- The right operand's row is the result's column. -/
theorem rhsIdx_row (D : DotDims ⟨2, ![M, K]⟩ ⟨2, ![N, K]⟩ ⟨2, ![M, N]⟩)
    (hln : D.lhsNonContracting = [0]) (hrn : D.rhsNonContracting = [0]) (hlb : D.lhsBatch = []) (hrb : D.rhsBatch = [])
    (j : (⟨2, ![M, N]⟩ : Shape).Idx) (kk : D.contr.Idx) : (D.rhsIdx j kk 0).val = (j 1).val := by
  obtain ⟨lc, rc, ln, rn, lb, rb, wf⟩ := D
  dsimp only at hln hrn hlb hrb
  subst hln hrn hlb hrb
  unfold DotDims.rhsIdx
  rw [dif_neg List.not_mem_nil, dif_pos (List.mem_singleton.mpr rfl)]
  rfl

/-- Entry (p, q) of x · yᵀ accumulated into zeros is the sum over the shared axis of x[p, k] · y[q, k]. -/
theorem matmul_nt_apply (D : DotDims ⟨2, ![M, K]⟩ ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = [])
    (prec : Option ContractPrecision) {φ₁ φ₂ : FTy}
    (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q)
      = ∑ k : Fin K, x (ix2 p k) * y (ix2 q k) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  refine congrArg₂ (· * ·) (congrArg x (funext fun a => Fin.ext ?_)) (congrArg y (funext fun a => Fin.ext ?_))
  · match a with
    | ⟨0, _⟩ => exact lhsIdx_row D hln hlb _ _
    | ⟨1, _⟩ => exact (D.lhsIdx_val_of_single hlc _ _).trans hk
  · match a with
    | ⟨0, _⟩ => exact rhsIdx_row D hln hrn hlb hrb _ _
    | ⟨1, _⟩ => exact (D.rhsIdx_val_of_single hrc _ _).trans hk

end Cert.LibMatmulNT

end
-- ==== Proof.KernelPay.lean ====
/-
  The body's arithmetic read at an index, on the extended reals.

  With `x0` a block of 1024 rows and `x1` a block of 2048 rows (512 entries each):
  * the tile is `T[p, q] = ∑ₖ x0[p, k] · x1[q, k]` (the matrix unit's product into zeros, the second operand
    contracted along its second axis);
  * the new scratch column is, at row `p`, the larger of the old scratch there and the supremum of row `p` of the tile;
  * the column-maxima block is, at `(s, q)` for each of its eight rows `s`, the supremum of column `q` of the tile;
  * the reset column is `-∞` everywhere.
  Casts to the same shape, a vector seen as a one-entry-wide column or a one-row matrix, and a row repeated eight times
  only move indices.
-/
import proofs.«164926_j63737314673124_2_alg».proof.Proof.Gen.KernelIdeal.Skeleton
import proofs.«164926_j63737314673124_2_alg».proof.Proof.MaxForms
import proofs.«164926_j63737314673124_2_alg».proof.Proof.LibMatmulNT
import Idealize.ShloMosaic.Lib.Pipeline.Value

noncomputable section

open Idealize.ShloMosaic Idealize.ShloMosaic.TcCoe Idealize.ShloMosaic.ValueIdx

namespace Cert.KernelIdeal.Pay

open Cert.KernelIdeal Cert.KernelIdeal.Gen Cert.CosMax

/-- The tile at `(p, q)`: the inner product of row `p` of the first block with row `q` of the second. -/
theorem pay2_apply (v3 : FVec Ideal S1024x512 .bf16) (v5 : FVec Ideal S2048x512 .bf16) (p : Fin 1024) (q : Fin 2048) :
    k0_pay2 (F := Ideal) v3 v5 (ix2 p q) = ∑ k : Fin 512, v3 (ix2 p k) * v5 (ix2 q k) := by
  unfold k0_pay2
  rw [shapeCast_self, shapeCast_self]
  exact Cert.LibMatmulNT.matmul_nt_apply dot_S1024x512_S2048x512_S1024x2048_1_1_0_0_n_n rfl rfl rfl rfl rfl rfl none v3 v5 p q

/-- The reset column is `-∞` at every row. -/
theorem pay1_apply (j : S1024x1.Idx) : k0_pay1 (F := Ideal) j = (⊥ : EReal) := by
  unfold k0_pay1
  rw [shapeCast_self]
  exact negInf

/-- The new scratch at row `p`: the old scratch there against the supremum of the tile's row `p`. -/
theorem pay3_apply (v3 : FVec Ideal S1024x512 .bf16) (v5 : FVec Ideal S2048x512 .bf16) (v10 : FVec Ideal S1024x1 .f32)
    (p : Fin 1024) :
    k0_pay3 (F := Ideal) v3 v5 v10 (ix2 p (0 : Fin 1))
      = max (v10 (ix2 p (0 : Fin 1))) (⨆ q : Fin 2048, ∑ k : Fin 512, v3 (ix2 p k) * v5 (ix2 q k)) := by
  unfold k0_pay3
  dsimp only
  refine (congrFun (shapeCast_self _ _) _).trans (congrArg (max (v10 (ix2 p (0 : Fin 1)))) ?_)
  refine (shapeCast_apply _ shapeCasts_S1024_S1024x1 (ix2 p (0 : Fin 1)) (ix1 p) ?_).trans ?_
  · rw [Shape.rowMajor_val_one, Shape.rowMajor_val_two]
    show p.val = p.val * 1 + 0
    omega
  · refine (tileRowMax (k0_pay2 (F := Ideal) v3 v5) reduces_S1024x2048_S1024 _ _ p).trans ?_
    exact iSup_congr fun q => pay2_apply v3 v5 p q

/-- The column-maxima block at `(s, q)`, whatever the row `s`: the supremum of the tile's column `q`. -/
theorem pay4_apply (v3 : FVec Ideal S1024x512 .bf16) (v5 : FVec Ideal S2048x512 .bf16) (s : Fin 8) (q : Fin 2048) :
    k0_pay4 (F := Ideal) v3 v5 (ix2 s q) = ⨆ p : Fin 1024, ∑ k : Fin 512, v3 (ix2 p k) * v5 (ix2 q k) := by
  unfold k0_pay4
  dsimp only
  refine (broadcastTo_apply _ broadcasts_S1x2048_S8x2048 (ix2 s q) (ix2 (0 : Fin 1) q) (fun a => ?_)).trans ?_
  · match a with
    | ⟨0, _⟩ => show 0 = if (1 : Nat) = 1 then 0 else s.val; rw [if_pos rfl]
    | ⟨1, _⟩ => show q.val = if (2048 : Nat) = 1 then 0 else q.val; rw [if_neg (by decide)]
  · refine (congrFun (shapeCast_self _ _) _).trans ?_
    refine (shapeCast_apply _ shapeCasts_S2048_S1x2048 (ix2 (0 : Fin 1) q) (ix1 q) ?_).trans ?_
    · rw [Shape.rowMajor_val_one, Shape.rowMajor_val_two]
      show q.val = 0 * 2048 + q.val
      omega
    · refine (tileColMax (k0_pay2 (F := Ideal) v3 v5) reduces_S1024x2048_S2048 _ _ q).trans ?_
      exact iSup_congr fun p => pay2_apply v3 v5 p q

end Cert.KernelIdeal.Pay

end
-- ==== Proof.TileMath.lean ====
/-
  The arithmetic of the tiling, with no program in sight.

  The matrix `C = A · Bᵀ` is computed tile by tile: row block `i` of `A` (1024 rows) against row block `j` of `B`
  (2048 rows) gives the 1024 × 2048 tile of `C` at rows `1024·i …`, columns `2048·j …`.

  * An entry of a tile is the entry of `C` at the shifted position.
  * Row maxima are accumulated over `j`: if the running value of row `r` is below exactly the upper bounds of
    `C[r, s]` for `s < 2048·j`, then after taking the larger of it and tile `j`'s row maximum it is below exactly the
    upper bounds of `C[r, s]` for `s < 2048·(j+1)`. From `-∞` and `j = 0` to `j = 3` this reaches all 8192 columns.
  * A tile's column maximum at column `s` is below exactly the upper bounds of `C[r, s]` over the rows of block `i`;
    the eight blocks together cover all 8192 rows.
-/
import proofs.«164926_j63737314673124_2_alg».proof.Proof.MaxForms

noncomputable section

namespace Cert.CosMax

open Idealize.ShloMosaic Idealize.ShloMosaic.ValueIdx

/-- A block of 1024 rows of the first array and a block of 2048 rows of the second. -/
abbrev BlkA : Shape := ⟨2, ![1024, 512]⟩
abbrev BlkB : Shape := ⟨2, ![2048, 512]⟩

/-- `x0` is row block `i` of `A`: its row `p` is row `1024·i + p` of `A`. -/
def IsRowBlockA (A : Rnd.Idx → EReal) (x0 : BlkA.Idx → EReal) (i : ℕ) : Prop :=
  ∀ (p : Fin 1024) (k : Fin 512) (r : Fin 8192), r.val = 1024 * i + p.val → x0 (ix2 p k) = A (ix2 r k)

/-- `x1` is row block `j` of `B`: its row `q` is row `2048·j + q` of `B`. -/
def IsRowBlockB (B : Rnd.Idx → EReal) (x1 : BlkB.Idx → EReal) (j : ℕ) : Prop :=
  ∀ (q : Fin 2048) (k : Fin 512) (s : Fin 8192), s.val = 2048 * j + q.val → x1 (ix2 q k) = B (ix2 s k)

variable {A B : Rnd.Idx → EReal} {x0 : BlkA.Idx → EReal} {x1 : BlkB.Idx → EReal} {i j : ℕ}

/-- Entry `(p, q)` of the tile is entry `(1024·i + p, 2048·j + q)` of the matrix. -/
theorem tile_entry (hx0 : IsRowBlockA A x0 i) (hx1 : IsRowBlockB B x1 j) (p : Fin 1024) (q : Fin 2048) (r s : Fin 8192)
    (hr : r.val = 1024 * i + p.val) (hs : s.val = 2048 * j + q.val) :
    ∑ k : Fin 512, x0 (ix2 p k) * x1 (ix2 q k) = gram A B (ix2 r s) := by
  rw [gram_apply]
  exact Finset.sum_congr rfl fun k _ => by rw [hx0 p k r hr, hx1 q k s hs]

/-- Absorbing tile `j` into a row's running maximum extends the columns it accounts for from `2048·j` to `2048·(j+1)`. -/
theorem rowAcc_step (hx0 : IsRowBlockA A x0 i) (hx1 : IsRowBlockB B x1 j) (hj : j < 4) (prev : EReal) (p : Fin 1024)
    (r : Fin 8192) (hr : r.val = 1024 * i + p.val) (cc : EReal)
    (hprev : prev ≤ cc ↔ ∀ s : Fin 8192, s.val < 2048 * j → gram A B (ix2 r s) ≤ cc) :
    max prev (⨆ q : Fin 2048, ∑ k : Fin 512, x0 (ix2 p k) * x1 (ix2 q k)) ≤ cc
      ↔ ∀ s : Fin 8192, s.val < 2048 * (j + 1) → gram A B (ix2 r s) ≤ cc := by
  rw [max_le_iff, hprev, iSup_le_iff]
  constructor
  · rintro ⟨h1, h2⟩ s hs
    by_cases hlt : s.val < 2048 * j
    · exact h1 s hlt
    · have hq : s.val - 2048 * j < 2048 := by omega
      have h3 := h2 ⟨s.val - 2048 * j, hq⟩
      rwa [tile_entry hx0 hx1 p ⟨s.val - 2048 * j, hq⟩ r s hr (by show s.val = 2048 * j + (s.val - 2048 * j); omega)] at h3
  · intro h
    refine ⟨fun s hs => h s (by omega), fun q => ?_⟩
    have hq := q.isLt
    have hs : 2048 * j + q.val < 8192 := by omega
    rw [tile_entry hx0 hx1 p q r ⟨2048 * j + q.val, hs⟩ hr rfl]
    exact h _ (by show 2048 * j + q.val < 2048 * (j + 1); omega)

/-- Before any tile the running maximum is `-∞`, which accounts for no column. -/
theorem rowAcc_start (r : Fin 8192) (cc : EReal) :
    (⊥ : EReal) ≤ cc ↔ ∀ s : Fin 8192, s.val < 2048 * 0 → gram A B (ix2 r s) ≤ cc :=
  ⟨fun _ s hs => absurd hs (by omega), fun _ => bot_le⟩

/-- After the fourth tile the running maximum accounts for every column: it is the row's supremum. -/
theorem rowAcc_done (v : EReal) (r : Fin 8192)
    (h : ∀ cc : EReal, v ≤ cc ↔ ∀ s : Fin 8192, s.val < 2048 * (3 + 1) → gram A B (ix2 r s) ≤ cc) :
    v = ⨆ s : Fin 8192, gram A B (ix2 r s) :=
  eq_iSup_of_le_iff _ _ fun cc => (h cc).trans ⟨fun h' s => h' s (by have := s.isLt; omega), fun h' s _ => h' s⟩

/-- Tile `(i, j)`'s maximum down column `q` bounds exactly the rows of block `i` at column `2048·j + q`. -/
theorem colTile_le (hx0 : IsRowBlockA A x0 i) (hx1 : IsRowBlockB B x1 j) (hi : i < 8) (q : Fin 2048) (s : Fin 8192)
    (hs : s.val = 2048 * j + q.val) (cc : EReal) :
    (⨆ p : Fin 1024, ∑ k : Fin 512, x0 (ix2 p k) * x1 (ix2 q k)) ≤ cc
      ↔ ∀ r : Fin 8192, 1024 * i ≤ r.val → r.val < 1024 * (i + 1) → gram A B (ix2 r s) ≤ cc := by
  rw [iSup_le_iff]
  constructor
  · intro h r h1 h2
    have hp : r.val - 1024 * i < 1024 := by omega
    have h3 := h ⟨r.val - 1024 * i, hp⟩
    rwa [tile_entry hx0 hx1 ⟨r.val - 1024 * i, hp⟩ q r s (by show r.val = 1024 * i + (r.val - 1024 * i); omega) hs] at h3
  · intro h p
    have hp := p.isLt
    have hr : 1024 * i + p.val < 8192 := by omega
    rw [tile_entry hx0 hx1 p q ⟨1024 * i + p.val, hr⟩ s rfl hs]
    exact h _ (by show 1024 * i ≤ 1024 * i + p.val; omega) (by show 1024 * i + p.val < 1024 * (i + 1); omega)

/-- The eight row blocks cover all rows: a bound on every block's column maximum is a bound on the whole column. -/
theorem colBlocks_le (f : Fin 8 → Fin 8 → EReal) (s : Fin 8192) (cc : EReal)
    (hf : ∀ a t : Fin 8, f a t ≤ cc ↔ ∀ r : Fin 8192, 1024 * a.val ≤ r.val → r.val < 1024 * (a.val + 1) → gram A B (ix2 r s) ≤ cc) :
    (∀ a t : Fin 8, f a t ≤ cc) ↔ ∀ r : Fin 8192, gram A B (ix2 r s) ≤ cc := by
  constructor
  · intro h r
    have hr := r.isLt
    have ha : r.val / 1024 < 8 := by omega
    exact (hf ⟨r.val / 1024, ha⟩ 0).1 (h _ _) r (by show 1024 * (r.val / 1024) ≤ r.val; omega)
      (by show r.val < 1024 * (r.val / 1024 + 1); omega)
  · intro h a t
    exact (hf a t).2 fun r _ _ => h r

end Cert.CosMax

end
-- ==== Proof.KernelAcc.lean ====
/-
  The two arrays the region leaves, entry by entry.

  Write `A`, `B` for the two scaled arrays the region finds and `C = A · Bᵀ`. Point `t` of the grid sees row block
  `t / 4` of `A` and row block `t mod 4` of `B` (the index maps, decided once over the 32 points).

  * The accumulation. After point `t`, row `p` of the scratch column is below exactly the upper bounds of
    `C[1024·(t/4) + p, s]` for `s < 2048·(t mod 4 + 1)`: by induction on the point — the first tile of a row block
    starts from `-∞`, every later tile of the block extends the range by 2048 columns. At `t mod 4 = 3` the range is
    every column, and the block written out there is that column: each entry of the first result array is its row's
    supremum.
  * Each entry `(8a + s, 2048·j + q)` of the second result array is, whatever `s`, below exactly the upper bounds of
    `C[r, 2048·j + q]` over the rows `r` of row block `a`.
  The blocks written back tile each array, so these hold at every entry.
-/
import proofs.«164926_j63737314673124_2_alg».proof.Proof.KernelPoints
import proofs.«164926_j63737314673124_2_alg».proof.Proof.KernelPay
import proofs.«164926_j63737314673124_2_alg».proof.Proof.TileMath

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.KernelIdeal.GenP Cert.KernelIdeal.Body Cert.KernelIdeal.Pay Cert.CosMax

variable (m : (ℓ : Loc nD τ sig) → Buf (Elt Ideal) ℓ) (c : Dev nD)

/-- The two scaled arrays as the region finds them; what computed them is not looked at here. -/
def arrA : Rnd.Idx → EReal := V m c main_v12
def arrB : Rnd.Idx → EReal := V m c main_v15

/-! ## The index maps and the input blocks -/

/-- The printed index maps over the 32 points: row block `t / 4`, column block `t mod 4`. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = t.val % 4 :=
  (by decide +kernel : ∀ t : Fin grid0.N, _)

/-- The first input block at point `t` is row block `t / 4` of `A`. -/
theorem blockA (t : Fin cfg0.N) : IsRowBlockA (arrA m c) (iblk m c 0 t : Vec Ideal S1024x512 .bf16) (t.val / 4) := by
  intro p k r hr
  obtain ⟨e0, e1, -⟩ := idx_facts t
  unfold iblk arrA
  rw [View.read_apply]
  show V m c main_v12 (((cfg0.win 0).blk t).view.emb (ix2 p k)) = V m c main_v12 (ix2 r k)
  refine congrArg (V m c main_v12) (funext fun a => Fin.ext ?_)
  match a with
  | ⟨0, _⟩ => show win0_0.index t (0 : Fin 2) * 1024 + 1 * p.val = r.val; omega
  | ⟨1, _⟩ => show win0_0.index t (1 : Fin 2) * 512 + 1 * k.val = k.val; omega

/-- The second input block at point `t` is row block `t mod 4` of `B`. -/
theorem blockB (t : Fin cfg0.N) : IsRowBlockB (arrB m c) (iblk m c 1 t : Vec Ideal S2048x512 .bf16) (t.val % 4) := by
  intro q k s hs
  obtain ⟨-, -, e2, e3, -⟩ := idx_facts t
  unfold iblk arrB
  rw [View.read_apply]
  show V m c main_v15 (((cfg0.win 1).blk t).view.emb (ix2 q k)) = V m c main_v15 (ix2 s k)
  refine congrArg (V m c main_v15) (funext fun a => Fin.ext ?_)
  match a with
  | ⟨0, _⟩ => show win0_1.index t (0 : Fin 2) * 2048 + 1 * q.val = s.val; omega
  | ⟨1, _⟩ => show win0_1.index t (1 : Fin 2) * 512 + 1 * k.val = k.val; omega

/-! ## The accumulation of row maxima -/

/-- One point's step: if what the scratch held before accounts for the columns below `2048·j` (`j = t mod 4`), what it
    holds after accounts for the columns below `2048·(j+1)`. -/
theorem acc_step (t : Fin cfg0.N) (prev : Vec Ideal S1024x1 .f32)
    (hS : (outsAt0 m c t.val t.isLt).2.2 = k0_pay3 (iblk m c 0 t) (iblk m c 1 t) prev)
    (p : Fin 1024) (r : Fin 8192) (hr : r.val = 1024 * (t.val / 4) + p.val) (cc : EReal) (j : ℕ) (hj : j = t.val % 4)
    (hprev : prev (ix2 p (0 : Fin 1)) ≤ cc ↔ ∀ s : Fin 8192, s.val < 2048 * j → gram (arrA m c) (arrB m c) (ix2 r s) ≤ cc) :
    (outsAt0 m c t.val t.isLt).2.2 (ix2 p (0 : Fin 1)) ≤ cc
      ↔ ∀ s : Fin 8192, s.val < 2048 * (j + 1) → gram (arrA m c) (arrB m c) (ix2 r s) ≤ cc := by
  subst hj
  rw [hS, pay3_apply (iblk m c 0 t) (iblk m c 1 t) prev p]
  exact rowAcc_step (blockA m c t) (blockB m c t) (Nat.mod_lt _ (by decide)) _ p r hr cc hprev

/-- THE INVARIANT, by induction on the point. -/
theorem acc_inv (n : ℕ) : ∀ (h : n < cfg0.N) (p : Fin 1024) (r : Fin 8192), r.val = 1024 * (n / 4) + p.val → ∀ cc : EReal,
    (outsAt0 m c n h).2.2 (ix2 p (0 : Fin 1)) ≤ cc
      ↔ ∀ s : Fin 8192, s.val < 2048 * (n % 4 + 1) → gram (arrA m c) (arrB m c) (ix2 r s) ≤ cc := by
  induction n with
  | zero =>
    intro h p r hr cc
    exact acc_step m c ⟨0, h⟩ (k0_pay1 (F := Ideal)) (scratchAt_A m c ⟨0, h⟩ rfl (show ¬(0 % 4 = 3) by decide)) p r hr cc 0 rfl
      (by rw [pay1_apply]; exact rowAcc_start r cc)
  | succ n ih =>
    intro h p r hr cc
    by_cases h0 : (n + 1) % 4 = 0
    · have h1 : ¬(n + 1) % 4 = 3 := by omega
      have key := acc_step m c ⟨n + 1, h⟩ (k0_pay1 (F := Ideal)) (scratchAt_A m c ⟨n + 1, h⟩ h0 h1) p r hr cc 0 h0.symm
        (by rw [pay1_apply]; exact rowAcc_start r cc)
      rw [h0]
      exact key
    · have ih' := ih (Nat.lt_of_succ_lt h) p r (by omega) cc
      have hS : (outsAt0 m c (n + 1) h).2.2
          = k0_pay3 (iblk m c 0 ⟨n + 1, h⟩) (iblk m c 1 ⟨n + 1, h⟩) (outsAt0 m c n (Nat.lt_of_succ_lt h)).2.2 := by
        by_cases h1 : (n + 1) % 4 = 3
        · exact scratchAt_C m c ⟨n + 1, h⟩ h0 h1
        · exact scratchAt_B m c ⟨n + 1, h⟩ h0 h1
      have key := acc_step m c ⟨n + 1, h⟩ _ hS p r hr cc (n % 4 + 1) (by show n % 4 + 1 = (n + 1) % 4; omega) ih'
      rw [show (n + 1) % 4 = n % 4 + 1 by omega]
      exact key

/-! ## The first result array: row suprema -/

/-- What an entry of the first result array must be: the supremum of its row of `C`. -/
def RowSpec (i : S8192x1.Idx) (v : EReal) : Prop :=
  ∀ r : Fin 8192, r.val = (i 0).val → v = ⨆ s : Fin 8192, gram (arrA m c) (arrB m c) (ix2 r s)

/-- The block written back at the last tile of a row block holds the row suprema of that block. -/
theorem rowBlock_spec (t : Fin cfg0.N) (hf : (cfg0.win 2).flush t = true) (y : S1024x1.Idx) :
    RowSpec m c (((cfg0.win 2).blk t).view.emb y) ((dats m 0 c).flushed 2 t y) := by
  have h3 : t.val % 4 = 3 := (flush0_2 t).mp hf
  have h0 : ¬t.val % 4 = 0 := by omega
  obtain ⟨-, -, -, -, e4, e5, -⟩ := idx_facts t
  intro r hr
  show (cfg0.win 2).cut (grid0.coords t) ((dats m 0 c).after 2 t) y = _
  rw [after0_2, rowAt_C m c t h0 h3]
  have hy0 : (y 0).val < 1024 := (y 0).isLt
  have hy1 : (y 1).val < 1 := (y 1).isLt
  obtain ⟨p, rfl⟩ : ∃ p : Fin 1024, y = ix2 p (0 : Fin 1) :=
    ⟨⟨(y 0).val, hy0⟩, funext fun a => Fin.ext (by
      match a with
      | ⟨0, _⟩ => rfl
      | ⟨1, _⟩ => show (y 1).val = 0; omega)⟩
  have hr' : r.val = 1024 * (t.val / 4) + p.val := by
    have e : ((((cfg0.win 2).blk t).view.emb (ix2 p (0 : Fin 1))) 0).val = win0_2.index t (0 : Fin 2) * 1024 + 1 * p.val := rfl
    rw [hr, e, e4]
    omega
  refine rowAcc_done _ r fun cc => ?_
  have key := acc_inv m c t.val t.isLt p r hr' cc
  rw [h3] at key
  exact key

/-! ## The second result array: column maxima of one row block -/

/-- What an entry `(8a + s, n)` of the second result array must be: the least upper bound of column `n` of `C` over the
    rows of row block `a`. -/
def ColSpec (i : S64x8192.Idx) (v : EReal) : Prop :=
  ∀ (a : ℕ) (n : Fin 8192), a = (i 0).val / 8 → n.val = (i 1).val → ∀ cc : EReal,
    v ≤ cc ↔ ∀ r : Fin 8192, 1024 * a ≤ r.val → r.val < 1024 * (a + 1) → gram (arrA m c) (arrB m c) (ix2 r n) ≤ cc

/-- The block written back at point `t` holds the column maxima of tile `(t / 4, t mod 4)`, in each of its eight rows. -/
theorem colBlock_spec (t : Fin cfg0.N) (y : S8x2048.Idx) :
    ColSpec m c (((cfg0.win 3).blk t).view.emb y) ((dats m 0 c).flushed 3 t y) := by
  have hN : t.val < 32 := lt_of_lt_of_eq t.isLt (show cfg0.N = 32 from N_0)
  obtain ⟨-, -, -, -, -, -, e6, e7⟩ := idx_facts t
  intro a n ha hn cc
  show ((cfg0.win 3).cut (grid0.coords t) ((dats m 0 c).after 3 t) y : EReal) ≤ cc ↔ _
  rw [after0_3, colAt m c t]
  obtain ⟨s, q, rfl⟩ : ∃ (s : Fin 8) (q : Fin 2048), y = ix2 s q := ⟨y 0, y 1, eq_ix2 y⟩
  have hs := s.isLt
  have hq := q.isLt
  have e0 : ((((cfg0.win 3).blk t).view.emb (ix2 s q)) 0).val = win0_3.index t (0 : Fin 2) * 8 + 1 * s.val := rfl
  have e1 : ((((cfg0.win 3).blk t).view.emb (ix2 s q)) 1).val = win0_3.index t (1 : Fin 2) * 2048 + 1 * q.val := rfl
  rw [e0, e6] at ha
  rw [e1, e7] at hn
  have ha' : a = t.val / 4 := by omega
  subst ha'
  show (k0_pay4 (F := Ideal) (iblk m c 0 t) (iblk m c 1 t) (ix2 s q) : EReal) ≤ cc ↔ _
  rw [pay4_apply (iblk m c 0 t) (iblk m c 1 t) s q]
  exact colTile_le (blockA m c t) (blockB m c t) (by omega) q n (by omega) cc

/-! ## The blocks cover the arrays -/

theorem mem_blk2 (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v16_0).slice (win0_2.rect t)).set ↔ _
  rw [View.set_slice_whole, Rect.mem_set_unit]
  exact Iff.rfl

theorem mem_blk3 (t : Fin cfg0.N) (i : S64x8192.Idx) :
    i ∈ ((cfg0.win 3).blk t).view.set ↔ ∀ a : Fin 2, win0_3.index t a * S8x2048.size a ≤ (i a).val ∧ (i a).val < win0_3.index t a * S8x2048.size a + S8x2048.size a := by
  show i ∈ ((View.whole main_v16_1).slice (win0_3.rect t)).set ↔ _
  rw [View.set_slice_whole, Rect.mem_set_unit]
  exact Iff.rfl

/-- Every row of the first result array lies in the block written at the last tile of its row block. -/
theorem cover2 (i : S8192x1.Idx) : ∃ t : Fin cfg0.N, (cfg0.win 2).flush t = true ∧ i ∈ ((cfg0.win 2).blk t).view.set := by
  have hN : cfg0.N = 32 := N_0
  have hi0 : (i 0).val < 8192 := (i 0).isLt
  have hi1 : (i 1).val < 1 := (i 1).isLt
  have hlt : 4 * ((i 0).val / 1024) + 3 < cfg0.N := by omega
  obtain ⟨-, -, -, -, e4, e5, -⟩ := idx_facts ⟨4 * ((i 0).val / 1024) + 3, hlt⟩
  have e4' : win0_2.index ⟨4 * ((i 0).val / 1024) + 3, hlt⟩ (0 : Fin 2) = (4 * ((i 0).val / 1024) + 3) / 4 := e4
  refine ⟨⟨4 * ((i 0).val / 1024) + 3, hlt⟩, (flush0_2 _).mpr (by show (4 * ((i 0).val / 1024) + 3) % 4 = 3; omega), ?_⟩
  rw [mem_blk2]
  intro a
  match a with
  | ⟨0, _⟩ =>
    show win0_2.index ⟨4 * ((i 0).val / 1024) + 3, hlt⟩ (0 : Fin 2) * 1024 ≤ (i 0).val ∧ (i 0).val < win0_2.index ⟨4 * ((i 0).val / 1024) + 3, hlt⟩ (0 : Fin 2) * 1024 + 1024
    omega
  | ⟨1, _⟩ =>
    show win0_2.index ⟨4 * ((i 0).val / 1024) + 3, hlt⟩ (1 : Fin 2) * 1 ≤ (i 1).val ∧ (i 1).val < win0_2.index ⟨4 * ((i 0).val / 1024) + 3, hlt⟩ (1 : Fin 2) * 1 + 1
    omega

/-- Every entry of the second result array lies in the block written at its tile's point. -/
theorem cover3 (i : S64x8192.Idx) : ∃ t : Fin cfg0.N, (cfg0.win 3).flush t = true ∧ i ∈ ((cfg0.win 3).blk t).view.set := by
  have hN : cfg0.N = 32 := N_0
  have hi0 : (i 0).val < 64 := (i 0).isLt
  have hi1 : (i 1).val < 8192 := (i 1).isLt
  have hlt : 4 * ((i 0).val / 8) + (i 1).val / 2048 < cfg0.N := by omega
  obtain ⟨-, -, -, -, -, -, e6, e7⟩ := idx_facts ⟨4 * ((i 0).val / 8) + (i 1).val / 2048, hlt⟩
  have e6' : win0_3.index ⟨4 * ((i 0).val / 8) + (i 1).val / 2048, hlt⟩ (0 : Fin 2) = (4 * ((i 0).val / 8) + (i 1).val / 2048) / 4 := e6
  have e7' : win0_3.index ⟨4 * ((i 0).val / 8) + (i 1).val / 2048, hlt⟩ (1 : Fin 2) = (4 * ((i 0).val / 8) + (i 1).val / 2048) % 4 := e7
  refine ⟨⟨4 * ((i 0).val / 8) + (i 1).val / 2048, hlt⟩, flush0_3 _, ?_⟩
  rw [mem_blk3]
  intro a
  match a with
  | ⟨0, _⟩ =>
    show win0_3.index ⟨4 * ((i 0).val / 8) + (i 1).val / 2048, hlt⟩ (0 : Fin 2) * 8 ≤ (i 0).val ∧ (i 0).val < win0_3.index ⟨4 * ((i 0).val / 8) + (i 1).val / 2048, hlt⟩ (0 : Fin 2) * 8 + 8
    omega
  | ⟨1, _⟩ =>
    show win0_3.index ⟨4 * ((i 0).val / 8) + (i 1).val / 2048, hlt⟩ (1 : Fin 2) * 2048 ≤ (i 1).val ∧ (i 1).val < win0_3.index ⟨4 * ((i 0).val / 8) + (i 1).val / 2048, hlt⟩ (1 : Fin 2) * 2048 + 2048
    omega

/-! ## The two arrays after the region -/

/-- Every entry of the first result array is the supremum of its row of `C`. -/
theorem rowArray_spec (i : S8192x1.Idx) : RowSpec m c i ((dats m 0 c).arrAt 2 cfg0.N i) :=
  (dats m 0 c).arrAt_forall_of_cover 2 (RowSpec m c) (fun t hf y => rowBlock_spec m c t hf y) (cover2) i

/-- Every entry of the second result array is the least upper bound of its column over its row block. -/
theorem colArray_spec (i : S64x8192.Idx) : ColSpec m c i ((dats m 0 c).arrAt 3 cfg0.N i) :=
  (dats m 0 c).arrAt_forall_of_cover 3 (ColSpec m c) (fun t _ y => colBlock_spec m c t y) (cover3) i

end Cert.KernelIdeal.Acc

end
-- ==== Proof.Scale.lean ====
/-
  Scaling a row to unit length, the two ways the programs spell it.

  One program multiplies each entry `x` of a row by the reciprocal `1 / d` of the row's divisor, the other divides
  `x` by `d`. On the extended reals a quotient by a divisor other than zero is the product with the divisor's
  inverse, whatever `x` is — finite or not —, so the two agree as soon as `d ≠ 0`. The divisor is the larger of the
  row's norm and a positive floor, hence positive, hence not zero: no property of the inputs is used.

  The divisor is one number per row, kept as a column [8192, 1] and broadcast along the 512 entries of the row; the
  constants are scalars broadcast down that column. Both broadcasts are read at an index here.
-/
import proofs.«164926_j63737314673124_2_alg».proof.Proof.MaxForms
import Idealize.ShloMosaic.Lib.IdealHost

noncomputable section

namespace Cert.CosMax

open Idealize.ShloMosaic Idealize.ShloMosaic.TcCoe Idealize.ShloMosaic.ValueIdx

/-- A column [8192, 1] broadcast along the rows of an [8192, 512] array: entry `(n, k)` is the column's entry `(n, 0)`. -/
theorem bcastCol_apply {α : Type} (y : Col.Idx → α) (hb : Col.BroadcastsInDim Rnd (![0, 1] : Fin 2 → Fin Rnd.rank))
    (n : Fin 8192) (k : Fin 512) : broadcastInDim Rnd ![0, 1] hb y (ix2 n k) = y (ix2 n (0 : Fin 1)) :=
  broadcastInDim_apply _ hb y (ix2 n k) (ix2 n (0 : Fin 1)) (fun a => match a with
    | ⟨0, _⟩ => by show n.val = if (8192 : Nat) = 1 then 0 else n.val; rw [if_neg (by decide)]
    | ⟨1, _⟩ => by show 0 = if (1 : Nat) = 1 then 0 else k.val; rw [if_pos rfl])

/-- A scalar broadcast down a column: every entry is the scalar. -/
theorem bcastScalar_apply {α : Type} (z : Sc.Idx → α) (hb : Sc.BroadcastsInDim Col (![] : Fin 0 → Fin Col.rank))
    (j : Col.Idx) : broadcastInDim Col ![] hb z j = z ix0 :=
  broadcastInDim_apply _ hb z j ix0 (fun a => a.elim0)

/-- A column whose every entry is at least the positive floor has no zero entry. -/
theorem floored_ne_zero (Y : FVec Ideal Col .f32) (hb : Sc.BroadcastsInDim Col (![] : Fin 0 → Fin Col.rank)) (j : Col.Idx) :
    maximumf Y (broadcastInDim Col ![] hb (constant Sc .f32 0x322BCC77#32)) j ≠ 0 := by
  show max (Y j) (broadcastInDim Col ![] hb (constant (F := Ideal) Sc .f32 0x322BCC77#32) j) ≠ 0
  rw [bcastScalar_apply]
  exact max_floor_ne_zero _ _ floor_pos

/-- Entry by entry, `x` times the reciprocal of the row's divisor is `x` divided by it, when no divisor is zero.
    (Narrowing the product to 16 bits changes nothing on the extended reals.) -/
theorem scaled_eq (x : FVec Ideal Rnd .f32) (D : FVec Ideal Col .f32) (hD : ∀ j : Col.Idx, D j ≠ 0)
    (hb0 : Sc.BroadcastsInDim Col (![] : Fin 0 → Fin Col.rank)) (hb2 : Col.BroadcastsInDim Rnd (![0, 1] : Fin 2 → Fin Rnd.rank))
    (hlt : FTy.bits .bf16 < FTy.bits .f32) :
    (truncf .bf16 (mulf x (broadcastInDim Rnd ![0, 1] hb2
        (Host.divf (broadcastInDim Col ![] hb0 (constant Sc .f32 0x3F800000#32)) D))) hlt : Rnd.Idx → EReal)
      = Host.divf x (broadcastInDim Rnd ![0, 1] hb2 D) := by
  funext i
  obtain ⟨n, k, rfl⟩ : ∃ (n : Fin 8192) (k : Fin 512), i = ix2 n k := ⟨i 0, i 1, eq_ix2 i⟩
  show x (ix2 n k) * broadcastInDim Rnd ![0, 1] hb2 (Host.divf (broadcastInDim Col ![] hb0 (constant (F := Ideal) Sc .f32 0x3F800000#32)) D) (ix2 n k)
    = Ideal.div (x (ix2 n k)) (broadcastInDim Rnd ![0, 1] hb2 D (ix2 n k))
  rw [bcastCol_apply, bcastCol_apply]
  show x (ix2 n k) * Ideal.div (broadcastInDim Col ![] hb0 (constant (F := Ideal) Sc .f32 0x3F800000#32) (ix2 n (0 : Fin 1))) (D (ix2 n (0 : Fin 1)))
    = Ideal.div (x (ix2 n k)) (D (ix2 n (0 : Fin 1)))
  rw [bcastScalar_apply]
  show x (ix2 n k) * Ideal.div (Ideal.ofBits .f32 0x3F800000#32) (D (ix2 n (0 : Fin 1))) = _
  rw [Ideal.ofBits_one_f32]
  exact mul_one_div _ _ (hD _)

end Cert.CosMax

end
-- ==== Proof.RefValue.lean ====
/-
  The reference, read as the specification.

  The reference scales each input's rows by dividing by the row's divisor, forms the whole matrix of inner products
  in one product, takes the maximum along each axis from `-∞`, and applies the entropy term to each vector of maxima.
  Stage by stage (the stages are the generated readings of its operations):
  * the matrix stage is `C` of the two scaled inputs, entry by entry;
  * the two reduction stages are the row suprema and the column suprema of the matrix stage;
  * each result is the shared entropy function of a reduction stage — the same operations in the same order, so this
    is an unfolding of names;
  * a row's divisor is the larger of its norm and the positive floor, so no divisor is zero.
-/
import proofs.«164926_j63737314673124_2_alg».proof.Proof.Gen.ReferenceIdeal.Read
import proofs.«164926_j63737314673124_2_alg».proof.Proof.Scale

noncomputable section

open Idealize.ShloMosaic Idealize.ShloMosaic.TcCoe Idealize.ShloMosaic.ValueIdx

namespace Cert.ReferenceIdeal.RefValue

open Cert.ReferenceIdeal Cert.ReferenceIdeal.Gen Cert.ReferenceIdeal.Read Cert.CosMax

/-! ## The entropy tail -/

section Tail
variable {F : FTy → Type} [FloatOps F]

/-- The first result is the entropy term of the row-maxima stage. -/
theorem res0_eq (x0 x1 : (⟨S8192x512, .f32⟩ : BufTy).Contents (Elt F)) :
    val_main_v48 (F := F) x0 x1 = entropy bcast_S_S8192 reducesTo_S8192_S_d0 h_S_ (val_main_v11 (F := F) x0 x1) := rfl

/-- The second result is the entropy term of the column-maxima stage. -/
theorem res1_eq (x0 x1 : (⟨S8192x512, .f32⟩ : BufTy).Contents (Elt F)) :
    val_main_v52 (F := F) x0 x1 = entropy bcast_S_S8192 reducesTo_S8192_S_d0 h_S_ (val_main_v28 (F := F) x0 x1) := rfl

end Tail

/-! ## The maxima and the matrix -/

/-- The row-maxima stage is the vector of row suprema of the matrix stage. -/
theorem rowStage_eq (x0 x1 : (⟨S8192x512, .f32⟩ : BufTy).Contents (Elt Ideal)) :
    val_main_v11 (F := Ideal) x0 x1 = rowMax (val_main_v10 (F := Ideal) x0 x1) :=
  hostRowMax (val_main_v10 (F := Ideal) x0 x1) reducesTo_S8192x8192_S8192_d1 h_S_

/-- The column-maxima stage is the vector of column suprema of the matrix stage. -/
theorem colStage_eq (x0 x1 : (⟨S8192x512, .f32⟩ : BufTy).Contents (Elt Ideal)) :
    val_main_v28 (F := Ideal) x0 x1 = colMax (val_main_v10 (F := Ideal) x0 x1) :=
  hostColMax (val_main_v10 (F := Ideal) x0 x1) reducesTo_S8192x8192_S8192_d0 h_S_

/-- The matrix stage is `C` of the two scaled inputs. -/
theorem matrixStage_eq (x0 x1 : (⟨S8192x512, .f32⟩ : BufTy).Contents (Elt Ideal)) :
    val_main_v10 (F := Ideal) x0 x1 = gram (val_main_v4 (F := Ideal) x0) (val_main_v9 (F := Ideal) x1) := by
  funext i
  obtain ⟨n, s, rfl⟩ : ∃ (n s : Fin 8192), i = ix2 n s := ⟨i 0, i 1, eq_ix2 i⟩
  rw [val_main_v10_apply, gram_apply]
  refine Finset.sum_congr rfl fun k _ => congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

/-! ## The divisors -/

/-- No row of the first input has divisor zero. -/
theorem div0_ne_zero (x0 : (⟨S8192x512, .f32⟩ : BufTy).Contents (Elt Ideal)) (j : S8192x1.Idx) :
    val_main_v2 (F := Ideal) x0 j ≠ 0 :=
  floored_ne_zero (val_main_v0 (F := Ideal) x0) bcast_S_S8192x1 j

/-- No row of the second input has divisor zero. -/
theorem div1_ne_zero (x1 : (⟨S8192x512, .f32⟩ : BufTy).Contents (Elt Ideal)) (j : S8192x1.Idx) :
    val_main_v7 (F := Ideal) x1 j ≠ 0 :=
  floored_ne_zero (val_main_v5 (F := Ideal) x1) bcast_S_S8192x1 j

end Cert.ReferenceIdeal.RefValue

end
-- ==== Proof.KernelValue.lean ====
/-
  The kernel's two results, read as the specification.

  After the region two host operations re-lay its arrays (the column of row maxima as a vector; the 64 rows of
  partial column maxima as 8 × 8 rows), one takes the maximum over the 8 × 8, and both vectors go through the entropy
  term — the same operations, in the same order, as the reference's tail. So:
  * each result is the shared entropy function of a vector computed from a region array;
  * the first vector is the row suprema of `C = A · Bᵀ`: entry `n` is entry `(n, 0)` of the first array;
  * the second is the column suprema of `C`: the maximum over the 8 × 8 entries above column `n` is below exactly the
    upper bounds of the whole column, since entry `(8a + s, n)` bounds the rows of block `a` and the eight blocks are
    all the rows;
  * `A` and `B`, the arrays the region finds, are the reference's scaled inputs: the host operations before the region
    multiply by the reciprocal of the divisor the reference divides by, and no divisor is zero.
-/
import proofs.«164926_j63737314673124_2_alg».proof.Proof.KernelAcc
import proofs.«164926_j63737314673124_2_alg».proof.Proof.RefValue
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.GenP Cert.KernelIdeal.Acc Cert.CosMax

/-! ## The host operations after the region -/

section Tail
variable {F : FTy → Type} [FloatOps F]
variable (m : (ℓ : Loc nD τ sig) → Buf (Elt F) ℓ) (c : Dev nD)

set_option maxHeartbeats 4000000 in
/-- The first result: the entropy term of the first region array seen as a vector. -/
theorem tail_rows : Pipeline.afterTail₀ cfgs (dats m) 0 (V0 m) [hostOps1] c main_v55
    = entropy bcast_S_S8192 reducesTo_S8192_S_d0 h_S_ (shapeCast S8192 ((dats m 0 c).arrAt 2 cfg0.N) shapeCasts_S8192x1_S8192) := by
  unfold Pipeline.afterTail₀
  show StableHlo.after hostOps1 _ (Proc.devRef .tc main_v55) = _
  after_results_simp
  have e : Pipeline.withArrays (cfgs 0).spec c (V0 m c) (fun w => (dats m 0 c).arrAt w (cfgs 0).N) (Proc.devRef .tc main_v16_0)
      = (dats m 0 c).arrAt 2 cfg0.N := Pipeline.withArrays_arr spec0 launch0.win.arr_inj c _ _ 2
  rw [e]
  rfl

set_option maxHeartbeats 4000000 in
/-- The second result: the entropy term of the maximum, over the 8 × 8 rows above each column, of the second region array. -/
theorem tail_cols : Pipeline.afterTail₀ cfgs (dats m) 0 (V0 m) [hostOps1] c main_v59
    = entropy bcast_S_S8192 reducesTo_S8192_S_d0 h_S_
        (Host.reduce FloatOps.maximumf (shapeCast S8x8x8192 ((dats m 0 c).arrAt 3 cfg0.N) shapeCasts_S64x8192_S8x8x8192)
          (constant S_ .f32 0xFF800000#32) reducesTo_S8x8x8192_S8192_d0_1 h_S_) := by
  unfold Pipeline.afterTail₀
  show StableHlo.after hostOps1 _ (Proc.devRef .tc main_v59) = _
  after_results_simp
  have e : Pipeline.withArrays (cfgs 0).spec c (V0 m c) (fun w => (dats m 0 c).arrAt w (cfgs 0).N) (Proc.devRef .tc main_v16_1)
      = (dats m 0 c).arrAt 3 cfg0.N := Pipeline.withArrays_arr spec0 launch0.win.arr_inj c _ _ 3
  rw [e]
  rfl

end Tail

/-! ## The two vectors and the two scaled arrays, on the extended reals -/

variable (m : (ℓ : Loc nD τ sig) → Buf (Elt Ideal) ℓ) (c : Dev nD)

/-- The first region array seen as a vector is the vector of row suprema of `C`. -/
theorem rowVec_eq : (shapeCast S8192 ((dats m 0 c).arrAt 2 cfg0.N) shapeCasts_S8192x1_S8192 : Vn.Idx → EReal)
    = rowMax (gram (arrA m c) (arrB m c)) := by
  funext i
  obtain ⟨n, rfl⟩ : ∃ n : Fin 8192, i = ix1 n := ⟨i 0, eq_ix1 i⟩
  rw [rowMax_apply]
  refine (colCast_apply _ shapeCasts_S8192x1_S8192 n).trans ?_
  exact rowArray_spec m c (ix2 n (0 : Fin 1)) n rfl

/-- The maximum over the 8 × 8 rows above each column of the second region array is the vector of column suprema of `C`. -/
theorem colVec_eq : (Host.reduce (FloatOps.maximumf (F := Ideal) (φ := .f32)) (shapeCast S8x8x8192 ((dats m 0 c).arrAt 3 cfg0.N) shapeCasts_S64x8192_S8x8x8192)
      (constant (F := Ideal) S_ .f32 0xFF800000#32) reducesTo_S8x8x8192_S8192_d0_1 h_S_ : Vn.Idx → EReal)
    = colMax (gram (arrA m c) (arrB m c)) := by
  funext i
  obtain ⟨n, rfl⟩ : ∃ n : Fin 8192, i = ix1 n := ⟨i 0, eq_ix1 i⟩
  rw [colMax_apply]
  refine eq_iSup_of_le_iff _ _ fun cc => ?_
  refine (hostStackMax_le _ reducesTo_S8x8x8192_S8192_d0_1 h_S_ n cc).trans ?_
  refine colBlocks_le _ n cc fun a t => ?_
  have ha := a.isLt
  have ht := t.isLt
  have hρ : 8 * a.val + t.val < 64 := by omega
  rw [stackCast_apply _ shapeCasts_S64x8192_S8x8x8192 a t n ⟨8 * a.val + t.val, hρ⟩ rfl]
  exact colArray_spec m c (ix2 (⟨8 * a.val + t.val, hρ⟩ : Fin 64) n) a.val n (by show a.val = (8 * a.val + t.val) / 8; omega) rfl cc

set_option maxHeartbeats 4000000 in
/-- The first array the region finds is the reference's scaled first input. -/
theorem arrA_eq : arrA m c
    = Cert.ReferenceIdeal.Read.val_main_v4 (F := Ideal) (m ((c.tc : Thread nD τ).loc main_arg0)) := by
  unfold arrA
  dsimp only [GenP.V, GenP.V0]
  simp only [hostOps0, hostOps0_1, hostOps0_2, hostOps0_3, List.flatten_cons, List.flatten_nil, List.append_nil, List.cons_append, List.nil_append]
  after_results
  refine (scaled_eq _ _ (fun j => floored_ne_zero _ _ j) _ _ _).trans ?_
  rfl

set_option maxHeartbeats 4000000 in
/-- The second array the region finds is the reference's scaled second input. -/
theorem arrB_eq : arrB m c
    = Cert.ReferenceIdeal.Read.val_main_v9 (F := Ideal) (m ((c.tc : Thread nD τ).loc main_arg1)) := by
  unfold arrB
  dsimp only [GenP.V, GenP.V0]
  simp only [hostOps0, hostOps0_1, hostOps0_2, hostOps0_3, List.flatten_cons, List.flatten_nil, List.append_nil, List.cons_append, List.nil_append]
  after_results
  refine (scaled_eq _ _ (fun j => floored_ne_zero _ _ j) _ _ _).trans ?_
  rfl

/-! ## The two results -/

/-- The kernel's first result is the reference's first result stage of the same arguments. -/
theorem res_rows : Pipeline.afterTail₀ cfgs (dats m) 0 (V0 m) [hostOps1] c main_v55
    = Cert.ReferenceIdeal.Read.val_main_v48 (F := Ideal) (m ((c.tc : Thread nD τ).loc main_arg0)) (m ((c.tc : Thread nD τ).loc main_arg1)) := by
  rw [tail_rows, Cert.ReferenceIdeal.RefValue.res0_eq, Cert.ReferenceIdeal.RefValue.rowStage_eq,
    Cert.ReferenceIdeal.RefValue.matrixStage_eq, ← arrA_eq m c, ← arrB_eq m c]
  exact congrArg (entropy bcast_S_S8192 reducesTo_S8192_S_d0 h_S_) (rowVec_eq m c)

/-- The kernel's second result is the reference's second result stage of the same arguments. -/
theorem res_cols : Pipeline.afterTail₀ cfgs (dats m) 0 (V0 m) [hostOps1] c main_v59
    = Cert.ReferenceIdeal.Read.val_main_v52 (F := Ideal) (m ((c.tc : Thread nD τ).loc main_arg0)) (m ((c.tc : Thread nD τ).loc main_arg1)) := by
  rw [tail_cols, Cert.ReferenceIdeal.RefValue.res1_eq, Cert.ReferenceIdeal.RefValue.colStage_eq,
    Cert.ReferenceIdeal.RefValue.matrixStage_eq, ← arrA_eq m c, ← arrB_eq m c]
  exact congrArg (entropy bcast_S_S8192 reducesTo_S8192_S_d0 h_S_) (colVec_eq m c)

end Cert.KernelIdeal.Value

end
-- ==== Proof.lean ====
/-
  Pairwise cosine similarity of two 8192 × 512 arrays, the maximum along each axis of the 8192 × 8192 similarity
  matrix, and an entropy term of each vector of maxima: the tiled kernel against the plain reference.

  On the extended reals both programs compute the same thing. Rows are scaled to unit length — the kernel multiplies
  by the reciprocal of the row's divisor, the reference divides by it, which is one operation whenever the divisor is
  not zero, and it never is: it is at least a positive floor. The similarity matrix `C` is a sum of 512 products per
  entry, whether formed tile by tile or at once. The kernel keeps, per row block, a running row maximum over the four
  column tiles, starting from `-∞`; that is the row's supremum. It writes each tile's column maxima, and the host
  takes the maximum of those over the eight row blocks; that is the column's supremum. Both programs then apply the
  same entropy operations in the same order.

  The frames of the two kernel programs are the generated ones; the reference's frame is its generated run with the
  results dropped. The
  idealization rewrote nothing, so there is nothing to preserve. For the value claim the two results are named as
  the reference's own result stages of the kernel's arguments: the reference reaches them by its generated run, the
  kernel by the chain of modules under Proof/.
-/
import proofs.«164926_j63737314673124_2_alg».proof.Defs
import proofs.«164926_j63737314673124_2_alg».proof.Proof.Gen.Kernel
import proofs.«164926_j63737314673124_2_alg».proof.Proof.Gen.Kernel.Skeleton
import proofs.«164926_j63737314673124_2_alg».proof.Proof.Gen.Kernel.Launch
import proofs.«164926_j63737314673124_2_alg».proof.Proof.Gen.Kernel.Points
import proofs.«164926_j63737314673124_2_alg».proof.Proof.KernelFrame.Frame
import proofs.«164926_j63737314673124_2_alg».proof.Proof.Gen.KernelIdeal
import proofs.«164926_j63737314673124_2_alg».proof.Proof.Gen.KernelIdeal.Skeleton
import proofs.«164926_j63737314673124_2_alg».proof.Proof.Gen.KernelIdeal.Launch
import proofs.«164926_j63737314673124_2_alg».proof.Proof.Gen.KernelIdeal.Points
import proofs.«164926_j63737314673124_2_alg».proof.Proof.KernelIdealFrame.Frame
import proofs.«164926_j63737314673124_2_alg».proof.Proof.Gen.ReferenceIdeal
import proofs.«164926_j63737314673124_2_alg».proof.Proof.Gen.Pre_finite_inputs
import proofs.«164926_j63737314673124_2_alg».proof.Proof.Gen.ReferenceIdeal.Run
import proofs.«164926_j63737314673124_2_alg».proof.Proof.Gen.ReferenceIdeal.Read
import proofs.«164926_j63737314673124_2_alg».proof.Proof.KernelValue
import Idealize.ShloMosaic.Adequacy
import Idealize.ShloMosaic.Init

noncomputable section

namespace Cert.Proof

open Idealize.ShloMosaic Idealize.SL.Sem

/-! ## The frames -/

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-! ## The values -/

/-- The idealized kernel's run with its two results named: each is the reference's result stage of the kernel's own
    arguments; the arguments end as they were. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v55)
            = Cert.ReferenceIdeal.Read.val_main_v48 (F := Ideal)
                (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_v59)
            = Cert.ReferenceIdeal.Read.val_main_v52 (F := Ideal)
                (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run Cert.KernelIdeal.defs _ _).mono (fun _ h c =>
    ⟨((h c).2 Cert.KernelIdeal.main_v55 (Pipeline.mem_restRefs_of Cert.KernelIdeal.main_v55 (by decide) (by decide))).trans
        (Cert.KernelIdeal.Value.res_rows m c),
      ((h c).2 Cert.KernelIdeal.main_v59 (Pipeline.mem_restRefs_of Cert.KernelIdeal.main_v59 (by decide) (by decide))).trans
        (Cert.KernelIdeal.Value.res_cols m c),
      ((h c).2 Cert.KernelIdeal.main_arg0 (Pipeline.mem_restRefs_of Cert.KernelIdeal.main_arg0 (by decide) (by decide))).trans
        (Cert.KernelIdeal.GenP.W_main_arg0 m (Cert.KernelIdeal.GenP.dats m) c),
      ((h c).2 Cert.KernelIdeal.main_arg1 (Pipeline.mem_restRefs_of Cert.KernelIdeal.main_arg1 (by decide) (by decide))).trans
        (Cert.KernelIdeal.GenP.W_main_arg1 m (Cert.KernelIdeal.GenP.dats m) c)⟩)
    (Cert.KernelIdeal.GenP.run_main m ρ)

/-- From memories agreeing on the arguments both programs end with the reference's two result stages of those arguments. -/
theorem algebraic : Cert.algebraic_KernelIdeal_ReferenceIdeal := by
  intro m ρ m' ρ' _ hagree
  refine ⟨fun c => Cert.ReferenceIdeal.Read.val_main_v48 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.ReferenceIdeal.Read.val_main_v52 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    kernel_run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v48_eq, (hagree c).1, (hagree c).2]
  · rw [(h c).2.1, Cert.ReferenceIdeal.Read.val_main_v52_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
